-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x1024 : Shape := ⟨2, ![32, 1024]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S32x1024x256 .f32) (main_arg1 : FVec F S32x1024x256 .f32) (main_arg2 : FVec F S32x1024 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  main_v13
-- ==== Kernel.lean ====
abbrev S32x1024x256 : Shape := ⟨3, ![32, 1024, 256]⟩
abbrev S32x1024 : Shape := ⟨2, ![32, 1024]⟩
abbrev S32x1024x1 : Shape := ⟨3, ![32, 1024, 1]⟩
abbrev S32x256x256 : Shape := ⟨3, ![32, 256, 256]⟩
abbrev S1x1024x256 : Shape := ⟨3, ![1, 1024, 256]⟩
abbrev S1x1024x1 : Shape := ⟨3, ![1, 1024, 1]⟩
abbrev S1x256x256 : Shape := ⟨3, ![1, 256, 256]⟩
abbrev S1024x256 : Shape := ⟨2, ![1024, 256]⟩
abbrev S1024x1 : Shape := ⟨2, ![1024, 1]⟩
abbrev S256x256 : Shape := ⟨2, ![256, 256]⟩

abbrev nBuf : Space → Nat
  | .hbm => 6
  | .vmem => 10
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024, .f32⟩
  | .hbm, ⟨3, _⟩ => ⟨S32x1024x1, .f32⟩
  | .hbm, ⟨4, _⟩ => ⟨S32x256x256, .f32⟩
  | .hbm, ⟨5, _⟩ => ⟨S32x256x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x1, .f32⟩
  | .local _ .vmem, ⟨5, _⟩ => ⟨S1x1024x1, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x1024_S32x1024x1 : S32x1024.ShapeCasts S32x1024x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  bitsLt_bf16_f32 : FTy.bits .bf16 < FTy.bits .f32
  broadcasts_S1024x1_S1024x256 : S1024x1.Broadcasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S1024x256_S1024x256_S256x256_0_0_1_1_n_n_wf : DotDims.WF S1024x256 S1024x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S32x1024x1.size a
  hwx0_2 : ∀ i : grid0.Coords, EltTy.bits .f32 = 32 ∨ (Rect.block (s := S32x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x256x256.size a
  hwx0_3 : ∀ i : grid0.Coords, EltTy.bits .f32 = 32 ∨ (Rect.block (s := S32x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S32x256x256.size a
  hwx0_4 : ∀ i : grid0.Coords, EltTy.bits .f32 = 32 ∨ (Rect.block (s := S32x256x256) S1x256x256.size (cc0_transform_4 i) (hinb0_4 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024 : Shape := ⟨2, ![32, 1024]⟩
abbrev S32x1024x1 : Shape := ⟨3, ![32, 1024, 1]⟩
abbrev S32x256x256 : Shape := ⟨3, ![32, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024, .f32⟩
  | .hbm, ⟨3, _⟩ => ⟨S32x1024x1, .f32⟩
  | .hbm, ⟨4, _⟩ => ⟨S32x1024x256, .f32⟩
  | .hbm, ⟨5, _⟩ => ⟨S32x1024x256, .f32⟩
  | .hbm, ⟨6, _⟩ => ⟨S32x1024x1, .f32⟩
  | .hbm, ⟨7, _⟩ => ⟨S32x1024x256, .f32⟩
  | .hbm, ⟨8, _⟩ => ⟨S32x1024x256, .f32⟩
  | .hbm, ⟨9, _⟩ => ⟨S32x256x256, .f32⟩
  | .hbm, ⟨10, _⟩ => ⟨S32x256x256, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S32x1024_S32x1024x1_0_1 : S32x1024.BroadcastsInDim S32x1024x1 (![0, 1] : Fin 2 → Fin S32x1024x1.rank)
  bcast_S32x1024x1_S32x1024x256_0_1_2 : S32x1024x1.BroadcastsInDim S32x1024x256 (![0, 1, 2] : Fin 3 → Fin S32x1024x256.rank)
  dot_S32x1024x256_S32x1024x256_S32x256x256_1_1_2_2_0_0_wf : DotDims.WF S32x1024x256 S32x1024x256 S32x256x256 [1] [1] [2] [2] [0] [0]

variable [Facts₀]

def dot_S32x1024x256_S32x1024x256_S32x256x256_1_1_2_2_0_0 : DotDims S32x1024x256 S32x1024x256 S32x256x256 where
  lhsContracting := [1]
  rhsContracting := [1]
  lhsNonContracting := [2]
  rhsNonContracting := [2]
  lhsBatch := [0]
  rhsBatch := [0]
  wf := dot_S32x1024x256_S32x1024x256_S32x256x256_1_1_2_2_0_0_wf

class Facts : Prop extends Facts₀ where

variable [Facts]
-- ==== Proof.MixtureSpec.lean ====
/-
  The weighted complex mixture, as two whole-array functions on the extended reals.

  For a batch `b`, real part `r`, imaginary part `i` (both `[32, 1024, 256]`) and per-token weights `w`
  (`[32, 1024]`), the weighted sum over the sequence axis of the outer products `v ⊗ conj v`, `v = r + i·j`, is

    re[b, a, c] = Σ_s (r[b,s,a]·w[b,s])·r[b,s,c] + Σ_s (i[b,s,a]·w[b,s])·i[b,s,c]
    im[b, a, c] = Σ_s (i[b,s,a]·w[b,s])·r[b,s,c] − Σ_s (r[b,s,a]·w[b,s])·i[b,s,c].

  Each of the four sums is one `weightedGram`: the entry `(a, c)` of `(x·diag w)ᵀ y` within batch `b`. Both programs
  compute these same four sums of the same products, so no law of the extended reals beyond reading each side at an
  index is needed, and nothing here asks an entry to be finite.
-/
import Idealize.ShloMosaic.PureOps.Ideal
import Idealize.ShloMosaic.Lib.ValueIdx

noncomputable section

namespace Cert.Mixture

open Idealize.ShloMosaic Idealize.ShloMosaic.ValueIdx

/-- The input arrays' shape `[32, 1024, 256]`, the weights' `[32, 1024]`, the results' `[32, 256, 256]`. -/
abbrev SIn : Shape := ⟨3, ![32, 1024, 256]⟩
abbrev SW : Shape := ⟨2, ![32, 1024]⟩
abbrev SOut : Shape := ⟨3, ![32, 256, 256]⟩

/-- Entry `(a, c)` of `(x·diag w)ᵀ y` in batch `b`: the sum over the sequence position `s` of
    `(x[b,s,a]·w[b,s])·y[b,s,c]`. -/
def weightedGram (x y : SIn.Idx → EReal) (w : SW.Idx → EReal) (b : Fin 32) (a c : Fin 256) : EReal :=
  ∑ s : Fin 1024, (x (ix3 b s a) * w (ix2 b s)) * y (ix3 b s c)

/-- The real part of the mixture: `(r·diag w)ᵀ r + (i·diag w)ᵀ i`, batch by batch. -/
def mixRe (r i : SIn.Idx → EReal) (w : SW.Idx → EReal) : SOut.Idx → EReal :=
  fun j => weightedGram r r w (j 0) (j 1) (j 2) + weightedGram i i w (j 0) (j 1) (j 2)

/-- The imaginary part of the mixture: `(i·diag w)ᵀ r − (r·diag w)ᵀ i`, batch by batch. -/
def mixIm (r i : SIn.Idx → EReal) (w : SW.Idx → EReal) : SOut.Idx → EReal :=
  fun j => weightedGram i r w (j 0) (j 1) (j 2) - weightedGram r i w (j 0) (j 1) (j 2)

theorem mixRe_apply (r i : SIn.Idx → EReal) (w : SW.Idx → EReal) (b : Fin 32) (a c : Fin 256) :
    mixRe r i w (ix3 b a c) = weightedGram r r w b a c + weightedGram i i w b a c := rfl

theorem mixIm_apply (r i : SIn.Idx → EReal) (w : SW.Idx → EReal) (b : Fin 32) (a c : Fin 256) :
    mixIm r i w (ix3 b a c) = weightedGram i r w b a c - weightedGram r i w b a c := rfl

end Cert.Mixture

end
-- ==== Proof.RefMixture.lean ====
/-
  The reference's two results are the mixture's real and imaginary parts.

  The reference multiplies each input by the weights broadcast along the feature axis, then takes four batched
  contractions over the sequence axis (`bsa,bsc→bac`), adds two and subtracts two. Read at an index `(b, a, c)`, each
  contraction is the sum over `s` of the weighted left entry at `(b, s, a)` times the right entry at `(b, s, c)`, and the
  weight broadcast to `(b, s, a)` is `w[b, s]`: exactly `weightedGram`.
-/
import proofs.«151193_j11536282157523_1_alg».proof.Proof.Gen.ReferenceIdeal.Read
import proofs.«151193_j11536282157523_1_alg».proof.Proof.MixtureSpec

noncomputable section

namespace Cert.Mixture.Ref

open Idealize.ShloMosaic Idealize.ShloMosaic.ValueIdx Cert.ReferenceIdeal Cert.ReferenceIdeal.Read Cert.Mixture

/-- The left operand of a contraction at output `(b, a, c)` and position `s` is read at `(b, s, a)`. -/
theorem lidx_eq (b : Fin 32) (a c : Fin 256) (s : Fin 1024) : lidx_main_v6 (ix3 b a c) s = ix3 b s a :=
  funext fun d => Fin.ext (by match d with | ⟨0, _⟩ => rfl | ⟨1, _⟩ => rfl | ⟨2, _⟩ => rfl)

/-- The right operand is read at `(b, s, c)`. -/
theorem ridx_eq (b : Fin 32) (a c : Fin 256) (s : Fin 1024) : ridx_main_v6 (ix3 b a c) s = ix3 b s c :=
  funext fun d => Fin.ext (by match d with | ⟨0, _⟩ => rfl | ⟨1, _⟩ => rfl | ⟨2, _⟩ => rfl)

/-- The weights broadcast to `[32, 1024, 256]` read, at `(b, s, a)`, the weight `w[b, s]`. -/
theorem widx_eq (b : Fin 32) (s : Fin 1024) (a : Fin 256) : idx_main_v0 (idx_main_v1 (ix3 b s a)) = ix2 b s :=
  funext fun d => Fin.ext (by match d with | ⟨0, _⟩ => rfl | ⟨1, _⟩ => rfl)

/-- The real input scaled by the weights, at `(b, s, a)`. -/
theorem scaled_re (x0 : SIn.Idx → EReal) (x2 : SW.Idx → EReal) (b : Fin 32) (s : Fin 1024) (a : Fin 256) :
    val_main_v2 (F := Ideal) x0 x2 (ix3 b s a) = x0 (ix3 b s a) * x2 (ix2 b s) := by
  rw [val_main_v2_apply, val_main_v1_apply, val_main_v0_apply, widx_eq]
  rfl

/-- The imaginary input scaled by the weights, at `(b, s, a)`. -/
theorem scaled_im (x1 : SIn.Idx → EReal) (x2 : SW.Idx → EReal) (b : Fin 32) (s : Fin 1024) (a : Fin 256) :
    val_main_v5 (F := Ideal) x1 x2 (ix3 b s a) = x1 (ix3 b s a) * x2 (ix2 b s) := by
  rw [val_main_v5_apply, val_main_v4_apply, val_main_v3_apply]
  exact congrArg (fun k => x1 (ix3 b s a) * x2 k) (widx_eq b s a)

/-- The reference's first result is the mixture's real part. -/
theorem re_eq (x0 x1 : SIn.Idx → EReal) (x2 : SW.Idx → EReal) :
    val_main_v8 (F := Ideal) x0 x1 x2 = mixRe x0 x1 x2 := by
  funext j
  obtain ⟨b, a, c, rfl⟩ : ∃ (b : Fin 32) (a c : Fin 256), j = ix3 b a c := ⟨j 0, j 1, j 2, eq_ix3 j⟩
  rw [val_main_v8_apply, val_main_v6_apply, val_main_v7_apply, mixRe_apply]
  show (∑ s : Fin 1024, _) + (∑ s : Fin 1024, _) = _
  unfold weightedGram
  refine congrArg₂ (· + ·) (Finset.sum_congr rfl fun s _ => ?_) (Finset.sum_congr rfl fun s _ => ?_)
  · rw [lidx_eq, ridx_eq, scaled_re]
  · rw [show lidx_main_v7 (ix3 b a c) s = ix3 b s a from lidx_eq b a c s,
      show ridx_main_v7 (ix3 b a c) s = ix3 b s c from ridx_eq b a c s, scaled_im]

/-- The reference's second result is the mixture's imaginary part. -/
theorem im_eq (x0 x1 : SIn.Idx → EReal) (x2 : SW.Idx → EReal) :
    val_main_v11 (F := Ideal) x0 x1 x2 = mixIm x0 x1 x2 := by
  funext j
  obtain ⟨b, a, c, rfl⟩ : ∃ (b : Fin 32) (a c : Fin 256), j = ix3 b a c := ⟨j 0, j 1, j 2, eq_ix3 j⟩
  rw [val_main_v11_apply, val_main_v9_apply, val_main_v10_apply, mixIm_apply]
  show (∑ s : Fin 1024, _) - (∑ s : Fin 1024, _) = _
  unfold weightedGram
  refine congrArg₂ (· - ·) (Finset.sum_congr rfl fun s _ => ?_) (Finset.sum_congr rfl fun s _ => ?_)
  · rw [show lidx_main_v9 (ix3 b a c) s = ix3 b s a from lidx_eq b a c s,
      show ridx_main_v9 (ix3 b a c) s = ix3 b s c from ridx_eq b a c s, scaled_im]
  · rw [show lidx_main_v10 (ix3 b a c) s = ix3 b s a from lidx_eq b a c s,
      show ridx_main_v10 (ix3 b a c) s = ix3 b s c from ridx_eq b a c s, scaled_re]

end Cert.Mixture.Ref

end
-- ==== Proof.KernelPayload.lean ====
/-
  The kernel body's two stored values, read at an index of the output block.

  At one grid point the body holds one batch: the real and imaginary blocks `x0`, `x1` (`[1, 1024, 256]`) and the
  weight column `x2` (`[1, 1024, 1]`). It drops the unit axis, scales each input row `s` by the weight `x2[s]`
  (the column broadcast along the feature axis), and takes four matrix products that contract the SEQUENCE axis of
  both operands (`lhsᵀ · rhs`) into a zero accumulator. At the extended reals a change of float format is the
  identity and a matrix product is the plain sum of products, so the entry `(a, c)` of each product is
  `Σ_s (x[s, a]·x2[s])·y[s, c]`; the first stored value adds two of them, the second subtracts two.
-/
import proofs.«151193_j11536282157523_1_alg».proof.Proof.Gen.KernelIdeal.Skeleton
import proofs.«151193_j11536282157523_1_alg».proof.Proof.MixtureSpec
import Idealize.ShloMosaic.Lib.Pipeline.Value
import Idealize.ShloMosaic.Lib.ValueLayout
import Idealize.ShloMosaic.PureOps.Ideal.Laws

noncomputable section

namespace Cert.Mixture.Kern

open Idealize.ShloMosaic Idealize.ShloMosaic.ValueIdx Cert.KernelIdeal Cert.KernelIdeal.Gen

/-- The product's dimension numbers: axis 0 of each `[1024, 256]` operand is contracted, axis 1 is free. -/
local notation "gramDims" => dot_S1024x256_S1024x256_S256x256_0_0_1_1_n_n

/-- On the contracted axis the left index is the contraction position. -/
theorem lhs_contr (j : S256x256.Idx) (q : (gramDims).contr.Idx) :
    ((gramDims).lhsIdx j q 0).val = (q ⟨0, by decide⟩).val :=
  (gramDims).lhsIdx_val_of_single rfl j q

/-- On its free axis the left index is the output's row. -/
theorem lhs_free (j : S256x256.Idx) (q : (gramDims).contr.Idx) :
    ((gramDims).lhsIdx j q 1).val = (j 0).val := by
  unfold DotDims.lhsIdx
  rw [dif_neg (show ¬(1 : Fin S1024x256.rank) ∈ (gramDims).lhsBatch by decide),
    dif_pos (show (1 : Fin S1024x256.rank) ∈ (gramDims).lhsNonContracting by decide)]
  rfl

/-- On the contracted axis the right index is the contraction position. -/
theorem rhs_contr (j : S256x256.Idx) (q : (gramDims).contr.Idx) :
    ((gramDims).rhsIdx j q 0).val = (q ⟨0, by decide⟩).val :=
  (gramDims).rhsIdx_val_of_single rfl j q

/-- On its free axis the right index is the output's column. -/
theorem rhs_free (j : S256x256.Idx) (q : (gramDims).contr.Idx) :
    ((gramDims).rhsIdx j q 1).val = (j 1).val := by
  unfold DotDims.rhsIdx
  rw [dif_neg (show ¬(1 : Fin S1024x256.rank) ∈ (gramDims).rhsBatch by decide),
    dif_pos (show (1 : Fin S1024x256.rank) ∈ (gramDims).rhsNonContracting by decide)]
  rfl

/-- A product contracting axis 0 of both `[1024, 256]` operands, into the zero accumulator: its entry `(a, c)` is the
    sum over the contracted position `s` of `l[s, a]·r[s, c]`. -/
theorem gram_apply (l r : FVec Ideal S1024x256 .bf16) (a c : Fin 256) :
    matmul gramDims none l r (constant (F := Ideal) S256x256 .f32 0x00000000#32) (ix2 a c)
      = ∑ s : Fin 1024, l (ix2 s a) * r (ix2 s c) := by
  refine (Ideal.matmul_constant_zero_apply gramDims none l r (ix2 a c)).trans ?_
  rw [← Equiv.sum_comp (contrEquiv1 gramDims 1024 rfl rfl).symm]
  refine Finset.sum_congr rfl fun s _ => ?_
  have hs := contrEquiv1_symm_val gramDims 1024 rfl rfl s
  have el : (gramDims).lhsIdx (ix2 a c) ((contrEquiv1 gramDims 1024 rfl rfl).symm s) = ix2 s a :=
    funext fun d => Fin.ext (by
      match d with
      | ⟨0, _⟩ => exact (lhs_contr _ _).trans hs
      | ⟨1, _⟩ => exact lhs_free _ _)
  have er : (gramDims).rhsIdx (ix2 a c) ((contrEquiv1 gramDims 1024 rfl rfl).symm s) = ix2 s c :=
    funext fun d => Fin.ext (by
      match d with
      | ⟨0, _⟩ => exact (rhs_contr _ _).trans hs
      | ⟨1, _⟩ => exact rhs_free _ _)
  rw [el, er]

/-- The weight column `[1024, 1]` broadcast along the feature axis reads, at `(s, a)`, the weight of row `s`. -/
theorem column_apply (v : FVec Ideal S1024x1 .f32) (s : Fin 1024) (a : Fin 256) :
    broadcastTo S1024x256 v broadcasts_S1024x1_S1024x256 (ix2 s a) = v (ix2 s (0 : Fin 1)) := by
  refine broadcastTo_apply v broadcasts_S1024x1_S1024x256 (ix2 s a) (ix2 s (0 : Fin 1)) fun ax => ?_
  match ax with
  | ⟨0, _⟩ =>
    show s.val = if (1024 : Nat) = 1 then 0 else s.val
    rw [if_neg (by decide)]
  | ⟨1, _⟩ =>
    show (0 : Nat) = if (1 : Nat) = 1 then 0 else a.val
    rw [if_pos rfl]

/-- An input block with its unit axis dropped, kept at its own format: at `(s, a)` the block at `(0, s, a)`. -/
theorem plain_re (x0 : Vec Ideal S1x1024x256 .f32) (s : Fin 1024) (a : Fin 256) :
    k0_pay4 (F := Ideal) x0 (ix2 s a) = x0 (ix3 (0 : Fin 1) s a) :=
  shapeCast_1ab_ab_apply x0 shapeCasts_S1x1024x256_S1024x256 s a

theorem plain_im (x1 : Vec Ideal S1x1024x256 .f32) (s : Fin 1024) (a : Fin 256) :
    k0_pay5 (F := Ideal) x1 (ix2 s a) = x1 (ix3 (0 : Fin 1) s a) :=
  shapeCast_1ab_ab_apply x1 shapeCasts_S1x1024x256_S1024x256 s a

/-- The weight of row `s`, from the weight block with its unit axis dropped. -/
theorem weight_apply (x2 : Vec Ideal S1x1024x1 .f32) (s : Fin 1024) :
    k0_pay3 (F := Ideal) x2 (ix2 s (0 : Fin 1)) = x2 (ix3 (0 : Fin 1) s (0 : Fin 1)) :=
  shapeCast_1ab_ab_apply x2 shapeCasts_S1x1024x1_S1024x1 s 0

/-- An input block scaled row by row by the weights: at `(s, a)` the entry times the weight of row `s`. -/
theorem scaled_re (x0 : Vec Ideal S1x1024x256 .f32) (x2 : Vec Ideal S1x1024x1 .f32) (s : Fin 1024) (a : Fin 256) :
    k0_pay6 (F := Ideal) x0 x2 (ix2 s a) = x0 (ix3 (0 : Fin 1) s a) * x2 (ix3 (0 : Fin 1) s (0 : Fin 1)) := by
  show k0_pay1 (F := Ideal) x0 (ix2 s a) * broadcastTo S1024x256 (k0_pay3 (F := Ideal) x2) broadcasts_S1024x1_S1024x256 (ix2 s a) = _
  rw [column_apply, weight_apply]
  exact congrArg (· * x2 (ix3 (0 : Fin 1) s (0 : Fin 1))) (shapeCast_1ab_ab_apply x0 shapeCasts_S1x1024x256_S1024x256 s a)

theorem scaled_im (x1 : Vec Ideal S1x1024x256 .f32) (x2 : Vec Ideal S1x1024x1 .f32) (s : Fin 1024) (a : Fin 256) :
    k0_pay7 (F := Ideal) x1 x2 (ix2 s a) = x1 (ix3 (0 : Fin 1) s a) * x2 (ix3 (0 : Fin 1) s (0 : Fin 1)) := by
  show k0_pay2 (F := Ideal) x1 (ix2 s a) * broadcastTo S1024x256 (k0_pay3 (F := Ideal) x2) broadcasts_S1024x1_S1024x256 (ix2 s a) = _
  rw [column_apply, weight_apply]
  exact congrArg (· * x2 (ix3 (0 : Fin 1) s (0 : Fin 1))) (shapeCast_1ab_ab_apply x1 shapeCasts_S1x1024x256_S1024x256 s a)

/-- One batch's weighted Gram entry from its blocks: `Σ_s (x[0,s,a]·x2[0,s,0])·y[0,s,c]`. -/
def blockGram (x y : Vec Ideal S1x1024x256 .f32) (x2 : Vec Ideal S1x1024x1 .f32) (a c : Fin 256) : EReal :=
  ∑ s : Fin 1024, (x (ix3 (0 : Fin 1) s a) * x2 (ix3 (0 : Fin 1) s (0 : Fin 1))) * y (ix3 (0 : Fin 1) s c)

/-- The value stored to the first output block, at `(u, a, c)`: the real part's two Gram entries added. -/
theorem stored_re (x0 x1 : Vec Ideal S1x1024x256 .f32) (x2 : Vec Ideal S1x1024x1 .f32) (u : Fin 1) (a c : Fin 256) :
    k0_pay8 (F := Ideal) x0 x1 x2 (ix3 u a c) = blockGram x0 x0 x2 a c + blockGram x1 x1 x2 a c := by
  unfold k0_pay8
  refine (shapeCast_ab_1ab_apply _ shapeCasts_S256x256_S1x256x256 u a c).trans ?_
  show matmul dot_S1024x256_S1024x256_S256x256_0_0_1_1_n_n none (k0_pay6 (F := Ideal) x0 x2) (k0_pay4 (F := Ideal) x0) (constant (F := Ideal) S256x256 .f32 0x00000000#32) (ix2 a c)
    + matmul dot_S1024x256_S1024x256_S256x256_0_0_1_1_n_n none (k0_pay7 (F := Ideal) x1 x2) (k0_pay5 (F := Ideal) x1) (constant (F := Ideal) S256x256 .f32 0x00000000#32) (ix2 a c) = _
  rw [gram_apply, gram_apply]
  unfold blockGram
  refine congrArg₂ (· + ·) (Finset.sum_congr rfl fun s _ => ?_) (Finset.sum_congr rfl fun s _ => ?_)
  · rw [scaled_re, plain_re]
  · rw [scaled_im, plain_im]

/-- The value stored to the second output block, at `(u, a, c)`: the imaginary part's two Gram entries subtracted. -/
theorem stored_im (x0 x1 : Vec Ideal S1x1024x256 .f32) (x2 : Vec Ideal S1x1024x1 .f32) (u : Fin 1) (a c : Fin 256) :
    k0_pay9 (F := Ideal) x0 x1 x2 (ix3 u a c) = blockGram x1 x0 x2 a c - blockGram x0 x1 x2 a c := by
  unfold k0_pay9
  refine (shapeCast_ab_1ab_apply _ shapeCasts_S256x256_S1x256x256 u a c).trans ?_
  show matmul dot_S1024x256_S1024x256_S256x256_0_0_1_1_n_n none (k0_pay7 (F := Ideal) x1 x2) (k0_pay4 (F := Ideal) x0) (constant (F := Ideal) S256x256 .f32 0x00000000#32) (ix2 a c)
    - matmul dot_S1024x256_S1024x256_S256x256_0_0_1_1_n_n none (k0_pay6 (F := Ideal) x0 x2) (k0_pay5 (F := Ideal) x1) (constant (F := Ideal) S256x256 .f32 0x00000000#32) (ix2 a c) = _
  rw [gram_apply, gram_apply]
  unfold blockGram
  refine congrArg₂ (· - ·) (Finset.sum_congr rfl fun s _ => ?_) (Finset.sum_congr rfl fun s _ => ?_)
  · rw [scaled_im, plain_re]
  · rw [scaled_re, plain_im]

/-- When the three blocks are batch `b` of the whole arrays — the input blocks the arrays' rows `(b, s, ·)`, the weight
    column the weights `w[b, s]` — the first stored value at `(u, a, c)` is the mixture's real part at `(b, a, c)`. -/
theorem stored_re_of_batch (x0 x1 : Vec Ideal S1x1024x256 .f32) (x2 : Vec Ideal S1x1024x1 .f32)
    (r i : SIn.Idx → EReal) (w : SW.Idx → EReal) (b : Fin 32)
    (h0 : ∀ (s : Fin 1024) (a : Fin 256), x0 (ix3 (0 : Fin 1) s a) = r (ix3 b s a))
    (h1 : ∀ (s : Fin 1024) (a : Fin 256), x1 (ix3 (0 : Fin 1) s a) = i (ix3 b s a))
    (h2 : ∀ s : Fin 1024, x2 (ix3 (0 : Fin 1) s (0 : Fin 1)) = w (ix2 b s))
    (u : Fin 1) (a c : Fin 256) :
    k0_pay8 (F := Ideal) x0 x1 x2 (ix3 u a c) = mixRe r i w (ix3 b a c) := by
  rw [stored_re, mixRe_apply]
  unfold blockGram weightedGram
  simp only [h0, h1, h2]

/-- Likewise the second stored value is the mixture's imaginary part at `(b, a, c)`. -/
theorem stored_im_of_batch (x0 x1 : Vec Ideal S1x1024x256 .f32) (x2 : Vec Ideal S1x1024x1 .f32)
    (r i : SIn.Idx → EReal) (w : SW.Idx → EReal) (b : Fin 32)
    (h0 : ∀ (s : Fin 1024) (a : Fin 256), x0 (ix3 (0 : Fin 1) s a) = r (ix3 b s a))
    (h1 : ∀ (s : Fin 1024) (a : Fin 256), x1 (ix3 (0 : Fin 1) s a) = i (ix3 b s a))
    (h2 : ∀ s : Fin 1024, x2 (ix3 (0 : Fin 1) s (0 : Fin 1)) = w (ix2 b s))
    (u : Fin 1) (a c : Fin 256) :
    k0_pay9 (F := Ideal) x0 x1 x2 (ix3 u a c) = mixIm r i w (ix3 b a c) := by
  rw [stored_im, mixIm_apply]
  unfold blockGram weightedGram
  simp only [h0, h1, h2]

end Cert.Mixture.Kern

end
-- ==== Proof.MixtureBlocks.lean ====
/-
  From one batch per grid point to the whole result arrays.

  The grid has 32 points; point `t` stages batch `t` of each input (rows `(t, ·, ·)` of the two `[32, 1024, 256]`
  arrays and of the weights reshaped to `[32, 1024, 1]`) and writes back batch `t` of each `[32, 256, 256]` result.
  So what point `t` writes back is batch `t` of the mixture's real (imaginary) part of the whole argument arrays, the
  32 written blocks tile each result array, and after the run each result array IS the mixture's part.
-/
import proofs.«151193_j11536282157523_1_alg».proof.Proof.Gen.KernelIdeal.Value
import proofs.«151193_j11536282157523_1_alg».proof.Proof.KernelPayload

set_option maxRecDepth 16384

noncomputable section

namespace Cert.Mixture.Blocks

open Idealize.ShloMosaic Idealize.ShloMosaic.TcCoe Idealize.SL.Sem Idealize.ShloMosaic.ValueIdx
open Cert.KernelIdeal Cert.KernelIdeal.Gen Cert.Mixture
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- Every window's block at point `t` is batch `t`: block index `t` on the batch axis, `0` on the other two. -/
theorem batch_of_point : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- A grid point as a batch number. -/
def batch (t : Fin cfg0.N) : Fin 32 := ⟨t.val, lt_of_lt_of_eq t.isLt N_0⟩

/-- The weights as the region finds them — reshaped to a column per batch — read, at `(b, s, 0)`, the weight `w[b, s]`. -/
theorem entry_weights (c : Dev nD) (b : Fin 32) (s : Fin 1024) :
    (V m c main_v0 : S32x1024x1.Idx → EReal) (ix3 b s (0 : Fin 1)) = m ((c : Thread nD τ).loc main_arg2) (ix2 b s) := by
  have e : (V m c main_v0 : S32x1024x1.Idx → EReal)
      = shapeCast S32x1024x1 (m ((c : Thread nD τ).loc main_arg2)) shapeCasts_S32x1024_S32x1024x1 := by
    dsimp only [Gen.V, Gen.hostOps0]; after_results; rfl
  rw [e]
  exact shapeCast_apply _ _ _ _ (by
    show (S32x1024.rowMajor (ix2 b s)).val = (S32x1024x1.rowMajor (ix3 b s (0 : Fin 1))).val
    rw [Shape.rowMajor_val_two, Shape.rowMajor_val_three]
    show b.val * 1024 + s.val = (b.val * 1024 + s.val) * 1 + 0
    omega)

/-- The real input's block at point `t` is batch `t` of the real argument array. -/
theorem block_re (c : Dev nD) (t : Fin cfg0.N) (s : Fin 1024) (a : Fin 256) :
    (iblk m c 0 t : Vec Ideal S1x1024x256 .f32) (ix3 (0 : Fin 1) s a)
      = m ((c : Thread nD τ).loc main_arg0) (ix3 (batch t) s a) := by
  obtain ⟨⟨e0, e1, e2⟩, -⟩ := batch_of_point t
  unfold iblk
  rw [View.read_apply]
  show V m c main_arg0 _ = m ((c : Thread nD τ).loc main_arg0) _
  rw [V_main_arg0]
  refine congrArg _ (funext fun d => Fin.ext ?_)
  match d with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 256 + 1 * a.val = a.val; omega

/-- The imaginary input's block at point `t` is batch `t` of the imaginary argument array. -/
theorem block_im (c : Dev nD) (t : Fin cfg0.N) (s : Fin 1024) (a : Fin 256) :
    (iblk m c 1 t : Vec Ideal S1x1024x256 .f32) (ix3 (0 : Fin 1) s a)
      = m ((c : Thread nD τ).loc main_arg1) (ix3 (batch t) s a) := by
  obtain ⟨-, ⟨e0, e1, e2⟩, -⟩ := batch_of_point t
  unfold iblk
  rw [View.read_apply]
  show V m c main_arg1 _ = m ((c : Thread nD τ).loc main_arg1) _
  rw [V_main_arg1]
  refine congrArg _ (funext fun d => Fin.ext ?_)
  match d with
  | ⟨0, _⟩ => show win0_1.index t (0 : Fin 3) * 1 + 1 * 0 = t.val; omega
  | ⟨1, _⟩ => show win0_1.index t (1 : Fin 3) * 1024 + 1 * s.val = s.val; omega
  | ⟨2, _⟩ => show win0_1.index t (2 : Fin 3) * 256 + 1 * a.val = a.val; omega

/-- The weight column's block at point `t` is batch `t` of the weights. -/
theorem block_w (c : Dev nD) (t : Fin cfg0.N) (s : Fin 1024) :
    (iblk m c 2 t : Vec Ideal S1x1024x1 .f32) (ix3 (0 : Fin 1) s (0 : Fin 1))
      = m ((c : Thread nD τ).loc main_arg2) (ix2 (batch t) s) := by
  obtain ⟨-, -, ⟨e0, e1, e2⟩, -⟩ := batch_of_point t
  unfold iblk
  rw [View.read_apply]
  refine Eq.trans ?_ (entry_weights m c (batch t) s)
  show V m c main_v0 _ = V m c main_v0 _
  refine congrArg _ (funext fun d => Fin.ext ?_)
  match d with
  | ⟨0, _⟩ => show win0_2.index t (0 : Fin 3) * 1 + 1 * 0 = t.val; omega
  | ⟨1, _⟩ => show win0_2.index t (1 : Fin 3) * 1024 + 1 * s.val = s.val; omega
  | ⟨2, _⟩ => show win0_2.index t (2 : Fin 3) * 1 + 1 * 0 = 0; omega

/-- The real part of the mixture of the argument arrays on core `c`. -/
abbrev wholeRe (c : Dev nD) : S32x256x256.Idx → EReal :=
  mixRe (m ((c : Thread nD τ).loc main_arg0)) (m ((c : Thread nD τ).loc main_arg1)) (m ((c : Thread nD τ).loc main_arg2))

/-- The imaginary part of the mixture of the argument arrays on core `c`. -/
abbrev wholeIm (c : Dev nD) : S32x256x256.Idx → EReal :=
  mixIm (m ((c : Thread nD τ).loc main_arg0)) (m ((c : Thread nD τ).loc main_arg1)) (m ((c : Thread nD τ).loc main_arg2))

/-- What point `t` writes back to the first result is batch `t` of the mixture's real part. -/
theorem flushed_re (c : Dev nD) (t : Fin cfg0.N) :
    (dats m 0 c).flushed 3 t = ((cfg0.win 3).blk t).view.read (Elt Ideal) (wholeRe m c) := by
  rw [Value.flushed3]
  unfold out0_3
  rw [View.canon_unit_zero origin]
  simp only [View.ld_unit_zero (S := S1x1024x256) origin, View.ld_unit_zero (S := S1x1024x1) origin]
  obtain ⟨-, -, -, ⟨e0, e1, e2⟩, -⟩ := batch_of_point t
  funext y
  obtain ⟨u, a, c', rfl⟩ : ∃ (u : Fin 1) (a c' : Fin 256), y = ix3 u a c' := ⟨y 0, y 1, y 2, eq_ix3 y⟩
  show k0_pay8 (F := Ideal) (iblk m c 0 t) (iblk m c 1 t) (iblk m c 2 t) (ix3 u a c')
    = wholeRe m c (((cfg0.win 3).blk t).view.emb (ix3 u a c'))
  have hemb : ((cfg0.win 3).blk t).view.emb (ix3 u a c') = ix3 (batch t) a c' := by
    funext d; apply Fin.ext
    match d with
    | ⟨0, _⟩ => show win0_3.index t (0 : Fin 3) * 1 + 1 * u.val = t.val; have := u.isLt; omega
    | ⟨1, _⟩ => show win0_3.index t (1 : Fin 3) * 256 + 1 * a.val = a.val; omega
    | ⟨2, _⟩ => show win0_3.index t (2 : Fin 3) * 256 + 1 * c'.val = c'.val; omega
  rw [hemb]
  exact Kern.stored_re_of_batch (iblk m c 0 t) (iblk m c 1 t) (iblk m c 2 t)
    (m ((c : Thread nD τ).loc main_arg0)) (m ((c : Thread nD τ).loc main_arg1)) (m ((c : Thread nD τ).loc main_arg2)) (batch t)
    (block_re m c t) (block_im m c t) (block_w m c t) u a c'

/-- What point `t` writes back to the second result is batch `t` of the mixture's imaginary part. -/
theorem flushed_im (c : Dev nD) (t : Fin cfg0.N) :
    (dats m 0 c).flushed 4 t = ((cfg0.win 4).blk t).view.read (Elt Ideal) (wholeIm m c) := by
  rw [Value.flushed4]
  unfold out0_4
  rw [View.canon_unit_zero origin]
  simp only [View.ld_unit_zero (S := S1x1024x256) origin, View.ld_unit_zero (S := S1x1024x1) origin]
  obtain ⟨-, -, -, -, ⟨e0, e1, e2⟩⟩ := batch_of_point t
  funext y
  obtain ⟨u, a, c', rfl⟩ : ∃ (u : Fin 1) (a c' : Fin 256), y = ix3 u a c' := ⟨y 0, y 1, y 2, eq_ix3 y⟩
  show k0_pay9 (F := Ideal) (iblk m c 0 t) (iblk m c 1 t) (iblk m c 2 t) (ix3 u a c')
    = wholeIm m c (((cfg0.win 4).blk t).view.emb (ix3 u a c'))
  have hemb : ((cfg0.win 4).blk t).view.emb (ix3 u a c') = ix3 (batch t) a c' := by
    funext d; apply Fin.ext
    match d with
    | ⟨0, _⟩ => show win0_4.index t (0 : Fin 3) * 1 + 1 * u.val = t.val; have := u.isLt; omega
    | ⟨1, _⟩ => show win0_4.index t (1 : Fin 3) * 256 + 1 * a.val = a.val; omega
    | ⟨2, _⟩ => show win0_4.index t (2 : Fin 3) * 256 + 1 * c'.val = c'.val; omega
  rw [hemb]
  exact Kern.stored_im_of_batch (iblk m c 0 t) (iblk m c 1 t) (iblk m c 2 t)
    (m ((c : Thread nD τ).loc main_arg0)) (m ((c : Thread nD τ).loc main_arg1)) (m ((c : Thread nD τ).loc main_arg2)) (batch t)
    (block_re m c t) (block_im m c t) (block_w m c t) u a c'

/-- An index of the first result array is in point `t`'s block iff each coordinate is in the block's range. -/
theorem mem_block_re (t : Fin cfg0.N) (i : S32x256x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v1_0).slice (win0_3.rect t)).set ↔ _
  rw [View.set_slice_whole, Rect.mem_set_unit]
  exact Iff.rfl

theorem mem_block_im (t : Fin cfg0.N) (i : S32x256x256.Idx) :
    i ∈ ((cfg0.win 4).blk t).view.set ↔ ∀ a : Fin 3, win0_4.index t a * S1x256x256.size a ≤ (i a).val
      ∧ (i a).val < win0_4.index t a * S1x256x256.size a + S1x256x256.size a := by
  show i ∈ ((View.whole main_v1_1).slice (win0_4.rect t)).set ↔ _
  rw [View.set_slice_whole, Rect.mem_set_unit]
  exact Iff.rfl

/-- The point whose block holds batch `b`. -/
def pointOf (b : Fin 32) : Fin cfg0.N := ⟨b.val, lt_of_lt_of_eq b.isLt N_0.symm⟩

/-- Every index of the first result array lies in the block of the point of its batch. -/
theorem cover_re (i : S32x256x256.Idx) :
    ∃ t : Fin cfg0.N, (cfg0.win 3).flush t = true ∧ i ∈ ((cfg0.win 3).blk t).view.set := by
  refine ⟨pointOf (i 0), flush0_3 _, ?_⟩
  obtain ⟨-, -, -, ⟨e0, e1, e2⟩, -⟩ := batch_of_point (pointOf (i 0))
  have ht : (pointOf (i 0)).val = (i 0).val := rfl
  have h1 : (i 1).val < 256 := (i 1).isLt
  have h2 : (i 2).val < 256 := (i 2).isLt
  rw [mem_block_re]
  intro a
  match a with
  | ⟨0, _⟩ => show win0_3.index (pointOf (i 0)) (0 : Fin 3) * 1 ≤ (i 0).val ∧ (i 0).val < win0_3.index (pointOf (i 0)) (0 : Fin 3) * 1 + 1; omega
  | ⟨1, _⟩ => show win0_3.index (pointOf (i 0)) (1 : Fin 3) * 256 ≤ (i 1).val ∧ (i 1).val < win0_3.index (pointOf (i 0)) (1 : Fin 3) * 256 + 256; omega
  | ⟨2, _⟩ => show win0_3.index (pointOf (i 0)) (2 : Fin 3) * 256 ≤ (i 2).val ∧ (i 2).val < win0_3.index (pointOf (i 0)) (2 : Fin 3) * 256 + 256; omega

theorem cover_im (i : S32x256x256.Idx) :
    ∃ t : Fin cfg0.N, (cfg0.win 4).flush t = true ∧ i ∈ ((cfg0.win 4).blk t).view.set := by
  refine ⟨pointOf (i 0), flush0_4 _, ?_⟩
  obtain ⟨-, -, -, -, ⟨e0, e1, e2⟩⟩ := batch_of_point (pointOf (i 0))
  have ht : (pointOf (i 0)).val = (i 0).val := rfl
  have h1 : (i 1).val < 256 := (i 1).isLt
  have h2 : (i 2).val < 256 := (i 2).isLt
  rw [mem_block_im]
  intro a
  match a with
  | ⟨0, _⟩ => show win0_4.index (pointOf (i 0)) (0 : Fin 3) * 1 ≤ (i 0).val ∧ (i 0).val < win0_4.index (pointOf (i 0)) (0 : Fin 3) * 1 + 1; omega
  | ⟨1, _⟩ => show win0_4.index (pointOf (i 0)) (1 : Fin 3) * 256 ≤ (i 1).val ∧ (i 1).val < win0_4.index (pointOf (i 0)) (1 : Fin 3) * 256 + 256; omega
  | ⟨2, _⟩ => show win0_4.index (pointOf (i 0)) (2 : Fin 3) * 256 ≤ (i 2).val ∧ (i 2).val < win0_4.index (pointOf (i 0)) (2 : Fin 3) * 256 + 256; omega

/-- After the run the first result array is the mixture's real part of the argument arrays. -/
theorem final_re (c : Dev nD) : (dats m 0 c).arrAt 3 cfg0.N = wholeRe m c :=
  (dats m 0 c).arrAt_eq_of_cover 3 (wholeRe m c) (fun t _ => flushed_re m c t) cover_re

/-- After the run the second result array is the mixture's imaginary part of the argument arrays. -/
theorem final_im (c : Dev nD) : (dats m 0 c).arrAt 4 cfg0.N = wholeIm m c :=
  (dats m 0 c).arrAt_eq_of_cover 4 (wholeIm m c) (fun t _ => flushed_im m c t) cover_im

/-- The kernel's run, read: every weakly fair execution terminates with the two result arrays at the mixture's real and
    imaginary parts of the argument arrays, the arguments unchanged. -/
theorem run : θ_run defs (onTc (τ := τ) (main (F := Ideal))) ⟨m, fun _ => 0, ρ⟩ fun r => ∀ c : Dev nD,
      r.2.mem ((c : Thread nD τ).loc main_v1_0) = wholeRe m c
      ∧ r.2.mem ((c : Thread nD τ).loc main_v1_1) = wholeIm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_re m c), (h c).2.1.trans (final_im m c), (h c).2.2⟩)
    (Value.run_blocks m ρ)

end Cert.Mixture.Blocks

end
-- ==== Proof.lean ====
/-
  A weighted complex mixture: for each of 32 batches, the sum over 1024 sequence positions of the weighted outer
  products `w[s]·(v[s] ⊗ conj v[s])` of a complex row `v = r + i·j` of 256 features, as a real and an imaginary
  `256 × 256` matrix:

    re[b, a, c] = Σ_s (r[b,s,a]·w[b,s])·r[b,s,c] + Σ_s (i[b,s,a]·w[b,s])·i[b,s,c]
    im[b, a, c] = Σ_s (i[b,s,a]·w[b,s])·r[b,s,c] − Σ_s (r[b,s,a]·w[b,s])·i[b,s,c].

  The kernel computes one batch per grid point: it scales the rows of the two input blocks by the weight column and
  takes four matrix products contracting the sequence axis of both operands (its operands narrowed to a shorter
  float format first, which at the extended reals is the identity). The reference scales the whole arrays by the
  broadcast weights and takes four batched contractions over the same axis. Read at an index, each side is the same
  four sums of the same products in the same order, so the two results agree entry by entry on the extended reals
  with no appeal to finiteness of the inputs: Proof/MixtureSpec.lean states the two functions, Proof/RefMixture.lean
  reads the reference as them, Proof/KernelPayload.lean reads one batch of the kernel's body as them, and
  Proof/MixtureBlocks.lean tiles the 32 batches into the whole result arrays. The idealized kernel is the kernel's
  own text read at the extended reals (no operation was rewritten), so there is nothing to preserve beyond that.
-/
import proofs.«151193_j11536282157523_1_alg».proof.Defs
import proofs.«151193_j11536282157523_1_alg».proof.Proof.Gen.Kernel
import proofs.«151193_j11536282157523_1_alg».proof.Proof.Gen.Kernel.Skeleton
import proofs.«151193_j11536282157523_1_alg».proof.Proof.Gen.Kernel.Launch
import proofs.«151193_j11536282157523_1_alg».proof.Proof.Gen.Kernel.Points
import proofs.«151193_j11536282157523_1_alg».proof.Proof.Gen.Kernel.Frame
import proofs.«151193_j11536282157523_1_alg».proof.Proof.Gen.KernelIdeal
import proofs.«151193_j11536282157523_1_alg».proof.Proof.Gen.KernelIdeal.Skeleton
import proofs.«151193_j11536282157523_1_alg».proof.Proof.Gen.KernelIdeal.Launch
import proofs.«151193_j11536282157523_1_alg».proof.Proof.Gen.KernelIdeal.Points
import proofs.«151193_j11536282157523_1_alg».proof.Proof.Gen.KernelIdeal.Frame
import proofs.«151193_j11536282157523_1_alg».proof.Proof.Gen.ReferenceIdeal
import proofs.«151193_j11536282157523_1_alg».proof.Proof.Gen.Pre_finite_inputs
import proofs.«151193_j11536282157523_1_alg».proof.Proof.Gen.KernelIdeal.Value
import proofs.«151193_j11536282157523_1_alg».proof.Proof.Gen.ReferenceIdeal.Run
import proofs.«151193_j11536282157523_1_alg».proof.Proof.Gen.ReferenceIdeal.Read
import proofs.«151193_j11536282157523_1_alg».proof.Proof.MixtureSpec
import proofs.«151193_j11536282157523_1_alg».proof.Proof.RefMixture
import proofs.«151193_j11536282157523_1_alg».proof.Proof.KernelPayload
import proofs.«151193_j11536282157523_1_alg».proof.Proof.MixtureBlocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of array operations: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten when it was read at the extended reals. -/
theorem preserves : Cert.preserves_Kernel_KernelIdeal := trivial

/-- From memories agreeing on the three arguments, the kernel's two result arrays and the reference's two results
    are the mixture's real and imaginary parts of those arguments. -/
theorem algebraic : Cert.algebraic_KernelIdeal_ReferenceIdeal := by
  intro m ρ m' ρ' _ hagree
  refine ⟨fun c => Cert.Mixture.Blocks.wholeRe m c, fun c => Cert.Mixture.Blocks.wholeIm m c,
    Cert.Mixture.Blocks.run m ρ, ?_⟩
  refine (θ_run Cert.ReferenceIdeal.defs _ _).mono
    (fun _ h c => ⟨(h c).1.trans ((Cert.Mixture.Ref.re_eq _ _ _).trans ?_),
      (h c).2.1.trans ((Cert.Mixture.Ref.im_eq _ _ _).trans ?_), (h c).2.2⟩)
    (Cert.ReferenceIdeal.Value.run (F := Ideal) m' ρ')
  · rw [(hagree c).1, (hagree c).2.1, (hagree c).2.2]
  · rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
